-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x768 : Shape := ⟨2, ![16384, 768]⟩
abbrev S16384x256 : Shape := ⟨2, ![16384, 256]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x768 : S_.BroadcastsInDim S16384x768 (![] : Fin 0 → Fin S16384x768.rank)
  reducesTo_S16384x768_S_d0_1 : S16384x768.ReducesTo [0, 1] S_
  bcast_S_S16384x256 : S_.BroadcastsInDim S16384x256 (![] : Fin 0 → Fin S16384x256.rank)
  reducesTo_S16384x256_S_d0_1 : S16384x256.ReducesTo [0, 1] S_

variable [Facts]

def fn {F : FTy → Type} [FloatOps F] (main_arg0 : FVec F S16384x512 .f32) (main_arg1 : FVec F S16384x768 .f32) (main_arg2 : FVec F S16384x256 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  main_v13
-- ==== Kernel.lean ====
abbrev S16384x512 : Shape := ⟨2, ![16384, 512]⟩
abbrev S16384x768 : Shape := ⟨2, ![16384, 768]⟩
abbrev S16384x256 : Shape := ⟨2, ![16384, 256]⟩
abbrev S16384x640 : Shape := ⟨2, ![16384, 640]⟩
abbrev S16384x896 : Shape := ⟨2, ![16384, 896]⟩
abbrev S1024x512 : Shape := ⟨2, ![1024, 512]⟩
abbrev S1024x768 : Shape := ⟨2, ![1024, 768]⟩
abbrev S1024x256 : Shape := ⟨2, ![1024, 256]⟩
abbrev S1024x640 : Shape := ⟨2, ![1024, 640]⟩
abbrev S1024x896 : Shape := ⟨2, ![1024, 896]⟩
abbrev S1024x128 : Shape := ⟨2, ![1024, 128]⟩

abbrev nBuf : Space → Nat
  | .hbm => 5
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384x768, .f32⟩
  | .hbm, ⟨2, _⟩ => ⟨S16384x256, .f32⟩
  | .hbm, ⟨3, _⟩ => ⟨S16384x640, .f32⟩
  | .hbm, ⟨4, _⟩ => ⟨S16384x896, .f32⟩
  | .local _ .vmem, ⟨0, _⟩ => ⟨S1024x512, .f32⟩
  | .local _ .vmem, ⟨1, _⟩ => ⟨S1024x512, .f32⟩
  | .local _ .vmem, ⟨2, _⟩ => ⟨S1024x768, .f32⟩
  | .local _ .vmem, ⟨3, _⟩ => ⟨S1024x768, .f32⟩
  | .local _ .vmem, ⟨4, _⟩ => ⟨S1024x256, .f32⟩
  | .local _ .vmem, ⟨5, _⟩ => ⟨S1024x256, .f32⟩
  | .local _ .vmem, ⟨6, _⟩ => ⟨S1024x640, .f32⟩
  | .local _ .vmem, ⟨7, _⟩ => ⟨S1024x640, .f32⟩
  | .local _ .vmem, ⟨8, _⟩ => ⟨S1024x896, .f32⟩
  | .local _ .vmem, ⟨9, _⟩ => ⟨S1024x896, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x512_S1024x128_0_0 : ∀ a, (![0, 0] : Fin 2 → Nat) a + S1024x128.size a ≤ S1024x512.size a
  h_S1024x128 : 0 < S1024x128.numel
  inb_S1024x640_S1024x128_0_0 : ∀ a, (![0, 0] : Fin 2 → Nat) a + S1024x128.size a ≤ S1024x640.size a
  inb_S1024x768_S1024x256_0_0 : ∀ a, (![0, 0] : Fin 2 → Nat) a + S1024x256.size a ≤ S1024x768.size a
  h_S1024x256 : 0 < S1024x256.numel
  inb_S1024x640_S1024x256_0_128 : ∀ a, (![0, 128] : Fin 2 → Nat) a + S1024x256.size a ≤ S1024x640.size a
  inb_S1024x256_S1024x256_0_0 : ∀ a, (![0, 0] : Fin 2 → Nat) a + S1024x256.size a ≤ S1024x256.size a
  inb_S1024x640_S1024x256_0_384 : ∀ a, (![0, 384] : Fin 2 → Nat) a + S1024x256.size a ≤ S1024x640.size a
  inb_S1024x512_S1024x256_0_128 : ∀ a, (![0, 128] : Fin 2 → Nat) a + S1024x256.size a ≤ S1024x512.size a
  inb_S1024x896_S1024x256_0_0 : ∀ a, (![0, 0] : Fin 2 → Nat) a + S1024x256.size a ≤ S1024x896.size a
  inb_S1024x768_S1024x512_0_256 : ∀ a, (![0, 256] : Fin 2 → Nat) a + S1024x512.size a ≤ S1024x768.size a
  h_S1024x512 : 0 < S1024x512.numel
  inb_S1024x896_S1024x512_0_256 : ∀ a, (![0, 256] : Fin 2 → Nat) a + S1024x512.size a ≤ S1024x896.size a
  inb_S1024x512_S1024x128_0_384 : ∀ a, (![0, 384] : Fin 2 → Nat) a + S1024x128.size a ≤ S1024x512.size a
  inb_S1024x896_S1024x128_0_768 : ∀ a, (![0, 768] : Fin 2 → Nat) a + S1024x128.size a ≤ S1024x896.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S16384x768.size a
  hwx0_1 : ∀ i : grid0.Coords, EltTy.bits .f32 = 32 ∨ (Rect.block (s := S16384x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S16384x256.size a
  hwx0_2 : ∀ i : grid0.Coords, EltTy.bits .f32 = 32 ∨ (Rect.block (s := S16384x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x640.size a ≤ S16384x640.size a
  hwx0_3 : ∀ i : grid0.Coords, EltTy.bits .f32 = 32 ∨ (Rect.block (s := S16384x640) S1024x640.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x896.size a ≤ S16384x896.size a
  hwx0_4 : ∀ i : grid0.Coords, EltTy.bits .f32 = 32 ∨ (Rect.block (s := S16384x896) S1024x896.size (cc0_transform_4 i) (hinb0_4 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x640.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x896.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x768 : Shape := ⟨2, ![16384, 768]⟩
abbrev S16384x256 : Shape := ⟨2, ![16384, 256]⟩
abbrev S16384x128 : Shape := ⟨2, ![16384, 128]⟩
abbrev S16384x640 : Shape := ⟨2, ![16384, 640]⟩
abbrev S16384x896 : Shape := ⟨2, ![16384, 896]⟩

abbrev nBuf : Space → Nat
  | .hbm => 10
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x768, .f32⟩
  | .hbm, ⟨2, _⟩ => ⟨S16384x256, .f32⟩
  | .hbm, ⟨3, _⟩ => ⟨S16384x128, .f32⟩
  | .hbm, ⟨4, _⟩ => ⟨S16384x256, .f32⟩
  | .hbm, ⟨5, _⟩ => ⟨S16384x640, .f32⟩
  | .hbm, ⟨6, _⟩ => ⟨S16384x256, .f32⟩
  | .hbm, ⟨7, _⟩ => ⟨S16384x512, .f32⟩
  | .hbm, ⟨8, _⟩ => ⟨S16384x128, .f32⟩
  | .hbm, ⟨9, _⟩ => ⟨S16384x896, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  slices_S16384x512_S16384x128_0_0 : S16384x512.Slices ![0, 0] S16384x128
  slices_S16384x768_S16384x256_0_0 : S16384x768.Slices ![0, 0] S16384x256
  concatenates_S16384x128_S16384x256_S16384x256_S16384x640_d1 : Shape.Concatenates [S16384x128, S16384x256, S16384x256] S16384x640 1
  slices_S16384x512_S16384x256_0_128 : S16384x512.Slices ![0, 128] S16384x256
  slices_S16384x768_S16384x512_0_256 : S16384x768.Slices ![0, 256] S16384x512
  slices_S16384x512_S16384x128_0_384 : S16384x512.Slices ![0, 384] S16384x128
  concatenates_S16384x256_S16384x512_S16384x128_S16384x896_d1 : Shape.Concatenates [S16384x256, S16384x512, S16384x128] S16384x896 1

variable [Facts₀]

class Facts : Prop extends Facts₀ where

variable [Facts]
-- ==== Proof.Spec.lean ====
/-
  The two results as whole-array functions of the three argument arrays.

  Nothing is computed: every result element is a copy of one argument element. Row by row,
    the first result  (640 columns) is columns 0..127 of the first argument, then columns 0..255 of the second,
                      then all 256 columns of the third;
    the second result (896 columns) is columns 128..383 of the first argument, then columns 256..767 of the second,
                      then columns 384..511 of the first.
  The same selection of columns describes one block of rows (1024 of them) and the whole array (16384 of them), so
  both are stated once, for any number of rows and any type of element.
-/
import Idealize.ShloMosaic.PureOps.Ideal
import Idealize.ShloMosaic.Lib.ValueIdx

noncomputable section

namespace Cert.Permute

open Idealize.ShloMosaic Idealize.ShloMosaic.ValueIdx

variable {α : Type} {R : Nat}

/-- A matrix shape of `R` rows and `C` columns. -/
abbrev Mat (R C : Nat) : Shape := ⟨2, ![R, C]⟩

/-- Row `r`, column `q` of the first result: column `q` of the first argument when `q < 128`, column `q - 128` of the second
    when `128 ≤ q < 384`, column `q - 384` of the third when `384 ≤ q`. -/
def firstAt (a0 : (Mat R 512).Idx → α) (a1 : (Mat R 768).Idx → α) (a2 : (Mat R 256).Idx → α) (r : Fin R) (q : Fin 640) : α :=
  if h : q.val < 128 then a0 (ix2 r ⟨q.val, by omega⟩)
  else if h' : q.val < 384 then a1 (ix2 r ⟨q.val - 128, by omega⟩)
  else a2 (ix2 r ⟨q.val - 384, by have := q.isLt; omega⟩)

/-- Row `r`, column `q` of the second result: column `128 + q` of the first argument when `q < 256`, column `q` of the
    second when `256 ≤ q < 768`, column `q - 384` of the first when `768 ≤ q`. -/
def secondAt (a0 : (Mat R 512).Idx → α) (a1 : (Mat R 768).Idx → α) (r : Fin R) (q : Fin 896) : α :=
  if h : q.val < 256 then a0 (ix2 r ⟨128 + q.val, by omega⟩)
  else if h' : q.val < 768 then a1 (ix2 r ⟨q.val, by omega⟩)
  else a0 (ix2 r ⟨q.val - 384, by have := q.isLt; omega⟩)

/-- The first result as one array. -/
def first (a0 : (Mat R 512).Idx → α) (a1 : (Mat R 768).Idx → α) (a2 : (Mat R 256).Idx → α) : (Mat R 640).Idx → α :=
  fun j => firstAt a0 a1 a2 (j 0) (j 1)

/-- The second result as one array. -/
def second (a0 : (Mat R 512).Idx → α) (a1 : (Mat R 768).Idx → α) : (Mat R 896).Idx → α :=
  fun j => secondAt a0 a1 (j 0) (j 1)

/-! The three column ranges of each result, one equation per range. -/

theorem firstAt_lo (a0 : (Mat R 512).Idx → α) (a1 : (Mat R 768).Idx → α) (a2 : (Mat R 256).Idx → α) (r : Fin R) (q : Fin 640)
    (h : q.val < 128) : firstAt a0 a1 a2 r q = a0 (ix2 r ⟨q.val, by omega⟩) := by
  unfold firstAt; rw [dif_pos h]

theorem firstAt_mid (a0 : (Mat R 512).Idx → α) (a1 : (Mat R 768).Idx → α) (a2 : (Mat R 256).Idx → α) (r : Fin R) (q : Fin 640)
    (h : 128 ≤ q.val) (h' : q.val < 384) : firstAt a0 a1 a2 r q = a1 (ix2 r ⟨q.val - 128, by omega⟩) := by
  unfold firstAt; rw [dif_neg (by omega), dif_pos h']

theorem firstAt_hi (a0 : (Mat R 512).Idx → α) (a1 : (Mat R 768).Idx → α) (a2 : (Mat R 256).Idx → α) (r : Fin R) (q : Fin 640)
    (h : 384 ≤ q.val) : firstAt a0 a1 a2 r q = a2 (ix2 r ⟨q.val - 384, by have := q.isLt; omega⟩) := by
  unfold firstAt; rw [dif_neg (by omega), dif_neg (by omega)]

theorem secondAt_lo (a0 : (Mat R 512).Idx → α) (a1 : (Mat R 768).Idx → α) (r : Fin R) (q : Fin 896)
    (h : q.val < 256) : secondAt a0 a1 r q = a0 (ix2 r ⟨128 + q.val, by omega⟩) := by
  unfold secondAt; rw [dif_pos h]

theorem secondAt_mid (a0 : (Mat R 512).Idx → α) (a1 : (Mat R 768).Idx → α) (r : Fin R) (q : Fin 896)
    (h : 256 ≤ q.val) (h' : q.val < 768) : secondAt a0 a1 r q = a1 (ix2 r ⟨q.val, by omega⟩) := by
  unfold secondAt; rw [dif_neg (by omega), dif_pos h']

theorem secondAt_hi (a0 : (Mat R 512).Idx → α) (a1 : (Mat R 768).Idx → α) (r : Fin R) (q : Fin 896)
    (h : 768 ≤ q.val) : secondAt a0 a1 r q = a0 (ix2 r ⟨q.val - 384, by have := q.isLt; omega⟩) := by
  unfold secondAt; rw [dif_neg (by omega), dif_neg (by omega)]

end Cert.Permute

end
-- ==== Proof.Bands.lean ====
/-
  One block of rows (1024 of them), band by band.

  The kernel fills each output block with three stores, each a band of consecutive columns copied from a band of one
  input block. A store's rectangle places its local index `x` at column `offset + x`; the load's rectangle reads the
  input block at column `offset' + x`. Here: at an index placed by a store's rectangle, the column selection of
  Spec.lean reads exactly what that store's load read. Three bands for each of the two results.
-/
import proofs.«136669_j68582037782900_2_alg».proof.Proof.Spec
import Idealize.ShloMosaic.Shape

noncomputable section

namespace Cert.Permute

open Idealize.ShloMosaic Idealize.ShloMosaic.ValueIdx

variable {α : Type}

/-! ## The first result's block: columns 0..127, 128..383, 384..639 -/

/-- Columns 0..127 of the block are columns 0..127 of the first input block. -/
theorem first_band_lo (a0 : (Mat 1024 512).Idx → α) (a1 : (Mat 1024 768).Idx → α) (a2 : (Mat 1024 256).Idx → α)
    (io : ∀ a, (![0, 0] : Fin 2 → Nat) a + (![1024, 128] : Fin 2 → Nat) a ≤ (Mat 1024 640).size a)
    (ii : ∀ a, (![0, 0] : Fin 2 → Nat) a + (![1024, 128] : Fin 2 → Nat) a ≤ (Mat 1024 512).size a)
    (x : (Mat 1024 128).Idx) :
    first (R := 1024) a0 a1 a2 ((Rect.unit (s := Mat 1024 640) ![0, 0] ![1024, 128] io).emb x)
      = a0 ((Rect.unit (s := Mat 1024 512) ![0, 0] ![1024, 128] ii).toLoadRect.idx x) := by
  have hx : (x 1).val < 128 := (x 1).isLt
  unfold first
  refine (firstAt_lo a0 a1 a2 _ _ ?_).trans (congrArg a0 ?_)
  · show 0 + 1 * (x 1).val < 128; omega
  · funext a; apply Fin.ext
    match a with
    | ⟨0, _⟩ => rfl
    | ⟨1, _⟩ => rfl

/-- Columns 128..383 of the block are columns 0..255 of the second input block. -/
theorem first_band_mid (a0 : (Mat 1024 512).Idx → α) (a1 : (Mat 1024 768).Idx → α) (a2 : (Mat 1024 256).Idx → α)
    (io : ∀ a, (![0, 128] : Fin 2 → Nat) a + (![1024, 256] : Fin 2 → Nat) a ≤ (Mat 1024 640).size a)
    (ii : ∀ a, (![0, 0] : Fin 2 → Nat) a + (![1024, 256] : Fin 2 → Nat) a ≤ (Mat 1024 768).size a)
    (x : (Mat 1024 256).Idx) :
    first (R := 1024) a0 a1 a2 ((Rect.unit (s := Mat 1024 640) ![0, 128] ![1024, 256] io).emb x)
      = a1 ((Rect.unit (s := Mat 1024 768) ![0, 0] ![1024, 256] ii).toLoadRect.idx x) := by
  have hx : (x 1).val < 256 := (x 1).isLt
  unfold first
  refine (firstAt_mid a0 a1 a2 _ _ ?_ ?_).trans (congrArg a1 ?_)
  · show 128 ≤ 128 + 1 * (x 1).val; omega
  · show 128 + 1 * (x 1).val < 384; omega
  · funext a; apply Fin.ext
    match a with
    | ⟨0, _⟩ => rfl
    | ⟨1, _⟩ => show 128 + 1 * (x 1).val - 128 = 0 + 1 * (x 1).val; omega

/-- Columns 384..639 of the block are the third input block. -/
theorem first_band_hi (a0 : (Mat 1024 512).Idx → α) (a1 : (Mat 1024 768).Idx → α) (a2 : (Mat 1024 256).Idx → α)
    (io : ∀ a, (![0, 384] : Fin 2 → Nat) a + (![1024, 256] : Fin 2 → Nat) a ≤ (Mat 1024 640).size a)
    (ii : ∀ a, (![0, 0] : Fin 2 → Nat) a + (![1024, 256] : Fin 2 → Nat) a ≤ (Mat 1024 256).size a)
    (x : (Mat 1024 256).Idx) :
    first (R := 1024) a0 a1 a2 ((Rect.unit (s := Mat 1024 640) ![0, 384] ![1024, 256] io).emb x)
      = a2 ((Rect.unit (s := Mat 1024 256) ![0, 0] ![1024, 256] ii).toLoadRect.idx x) := by
  have hx : (x 1).val < 256 := (x 1).isLt
  unfold first
  refine (firstAt_hi a0 a1 a2 _ _ ?_).trans (congrArg a2 ?_)
  · show 384 ≤ 384 + 1 * (x 1).val; omega
  · funext a; apply Fin.ext
    match a with
    | ⟨0, _⟩ => rfl
    | ⟨1, _⟩ => show 384 + 1 * (x 1).val - 384 = 0 + 1 * (x 1).val; omega

/-! ## The second result's block: columns 0..255, 256..767, 768..895 -/

/-- Columns 0..255 of the block are columns 128..383 of the first input block. -/
theorem second_band_lo (a0 : (Mat 1024 512).Idx → α) (a1 : (Mat 1024 768).Idx → α)
    (io : ∀ a, (![0, 0] : Fin 2 → Nat) a + (![1024, 256] : Fin 2 → Nat) a ≤ (Mat 1024 896).size a)
    (ii : ∀ a, (![0, 128] : Fin 2 → Nat) a + (![1024, 256] : Fin 2 → Nat) a ≤ (Mat 1024 512).size a)
    (x : (Mat 1024 256).Idx) :
    second (R := 1024) a0 a1 ((Rect.unit (s := Mat 1024 896) ![0, 0] ![1024, 256] io).emb x)
      = a0 ((Rect.unit (s := Mat 1024 512) ![0, 128] ![1024, 256] ii).toLoadRect.idx x) := by
  have hx : (x 1).val < 256 := (x 1).isLt
  unfold second
  refine (secondAt_lo a0 a1 _ _ ?_).trans (congrArg a0 ?_)
  · show 0 + 1 * (x 1).val < 256; omega
  · funext a; apply Fin.ext
    match a with
    | ⟨0, _⟩ => rfl
    | ⟨1, _⟩ => show 128 + (0 + 1 * (x 1).val) = 128 + 1 * (x 1).val; omega

/-- Columns 256..767 of the block are columns 256..767 of the second input block. -/
theorem second_band_mid (a0 : (Mat 1024 512).Idx → α) (a1 : (Mat 1024 768).Idx → α)
    (io : ∀ a, (![0, 256] : Fin 2 → Nat) a + (![1024, 512] : Fin 2 → Nat) a ≤ (Mat 1024 896).size a)
    (ii : ∀ a, (![0, 256] : Fin 2 → Nat) a + (![1024, 512] : Fin 2 → Nat) a ≤ (Mat 1024 768).size a)
    (x : (Mat 1024 512).Idx) :
    second (R := 1024) a0 a1 ((Rect.unit (s := Mat 1024 896) ![0, 256] ![1024, 512] io).emb x)
      = a1 ((Rect.unit (s := Mat 1024 768) ![0, 256] ![1024, 512] ii).toLoadRect.idx x) := by
  have hx : (x 1).val < 512 := (x 1).isLt
  unfold second
  refine (secondAt_mid a0 a1 _ _ ?_ ?_).trans (congrArg a1 ?_)
  · show 256 ≤ 256 + 1 * (x 1).val; omega
  · show 256 + 1 * (x 1).val < 768; omega
  · funext a; apply Fin.ext
    match a with
    | ⟨0, _⟩ => rfl
    | ⟨1, _⟩ => rfl

/-- Columns 768..895 of the block are columns 384..511 of the first input block. -/
theorem second_band_hi (a0 : (Mat 1024 512).Idx → α) (a1 : (Mat 1024 768).Idx → α)
    (io : ∀ a, (![0, 768] : Fin 2 → Nat) a + (![1024, 128] : Fin 2 → Nat) a ≤ (Mat 1024 896).size a)
    (ii : ∀ a, (![0, 384] : Fin 2 → Nat) a + (![1024, 128] : Fin 2 → Nat) a ≤ (Mat 1024 512).size a)
    (x : (Mat 1024 128).Idx) :
    second (R := 1024) a0 a1 ((Rect.unit (s := Mat 1024 896) ![0, 768] ![1024, 128] io).emb x)
      = a0 ((Rect.unit (s := Mat 1024 512) ![0, 384] ![1024, 128] ii).toLoadRect.idx x) := by
  have hx : (x 1).val < 128 := (x 1).isLt
  unfold second
  refine (secondAt_hi a0 a1 _ _ ?_).trans (congrArg a0 ?_)
  · show 768 ≤ 768 + 1 * (x 1).val; omega
  · funext a; apply Fin.ext
    match a with
    | ⟨0, _⟩ => rfl
    | ⟨1, _⟩ => show 768 + 1 * (x 1).val - 384 = 384 + 1 * (x 1).val; omega

end Cert.Permute

end
-- ==== Proof.BlockValue.lean ====
/-
  What one grid point leaves in its two output blocks.

  The body's stores into an output block are found by the generated run as a list of pieces (a rectangle of the block
  and what was stored there), read back over unspecified contents. Each piece is one band of columns of the block,
  holding a band of one input block; together the bands cover the block. So the block is the column selection of
  Spec.lean applied to the point's three input blocks: every piece agrees with that one function where it was stored
  (Bands.lean), and every index lies under some piece.
-/
import proofs.«136669_j68582037782900_2_alg».proof.Proof.Gen.KernelIdeal.Frame
import proofs.«136669_j68582037782900_2_alg».proof.Proof.Bands
import Idealize.ShloMosaic.Lib.Pipeline.Value

set_option maxRecDepth 16384

noncomputable section

namespace Cert.KernelIdeal.BlockValue

open Idealize.ShloMosaic Idealize.ShloMosaic.TcCoe Idealize.SL.Sem
open Cert.KernelIdeal Cert.KernelIdeal.Gen

variable {F : FTy → Type} [FloatOps F]

/-- The first output block after the body: columns 0..127 of the first input block, then columns 0..255 of the second,
    then the third. -/
theorem first_block (c : Dev nD) (i : grid0.Coords) (arg1 : Memref sig .tc .vmem S1024x512 .f32) (harg1 : arg1.IsWhole) (arg2 : Memref sig .tc .vmem S1024x768 .f32) (harg2 : arg2.IsWhole) (arg3 : Memref sig .tc .vmem S1024x256 .f32) (harg3 : arg3.IsWhole) (arg4 : Memref sig .tc .vmem S1024x640 .f32) (harg4 : arg4.IsWhole) (arg5 : Memref sig .tc .vmem S1024x896 .f32) (harg5 : arg5.IsWhole)
    (x0 : Vec F S1024x512 .f32) (x1 : Vec F S1024x768 .f32) (x2 : Vec F S1024x256 .f32) :
    out0_A_3 c i arg1 harg1 arg2 harg2 arg3 harg3 arg4 harg4 arg5 harg5 x0 x1 x2 = Cert.Permute.first (R := 1024) x0 x1 x2 := by
  unfold out0_A_3
  rw [View.read_writes_junk_eq_canon]
  funext y
  refine View.canon_apply_of_pieces (Cert.Permute.first (R := 1024) x0 x1 x2) _ ?_ y (cover0_A_3 c i arg1 harg1 arg2 harg2 arg3 harg3 arg4 harg4 arg5 harg5 x0 x1 x2 y)
  unfold kernelRun0_A
  dsimp only
  simp only [View.readAt_eq_ld, harg1.read_unread, harg2.read_unread, harg3.read_unread]
  intro p hp x
  simp only [List.mem_cons, List.not_mem_nil, or_false] at hp
  rcases hp with rfl | rfl | rfl
  · exact (Cert.Permute.first_band_hi x0 x1 x2 inb_S1024x640_S1024x256_0_384 inb_S1024x256_S1024x256_0_0 x).symm
  · exact (Cert.Permute.first_band_mid x0 x1 x2 inb_S1024x640_S1024x256_0_128 inb_S1024x768_S1024x256_0_0 x).symm
  · exact (Cert.Permute.first_band_lo x0 x1 x2 inb_S1024x640_S1024x128_0_0 inb_S1024x512_S1024x128_0_0 x).symm

/-- The second output block after the body: columns 128..383 of the first input block, then columns 256..767 of the
    second, then columns 384..511 of the first. -/
theorem second_block (c : Dev nD) (i : grid0.Coords) (arg1 : Memref sig .tc .vmem S1024x512 .f32) (harg1 : arg1.IsWhole) (arg2 : Memref sig .tc .vmem S1024x768 .f32) (harg2 : arg2.IsWhole) (arg3 : Memref sig .tc .vmem S1024x256 .f32) (harg3 : arg3.IsWhole) (arg4 : Memref sig .tc .vmem S1024x640 .f32) (harg4 : arg4.IsWhole) (arg5 : Memref sig .tc .vmem S1024x896 .f32) (harg5 : arg5.IsWhole)
    (x0 : Vec F S1024x512 .f32) (x1 : Vec F S1024x768 .f32) (x2 : Vec F S1024x256 .f32) :
    out0_A_4 c i arg1 harg1 arg2 harg2 arg3 harg3 arg4 harg4 arg5 harg5 x0 x1 x2 = Cert.Permute.second (R := 1024) x0 x1 := by
  unfold out0_A_4
  rw [View.read_writes_junk_eq_canon]
  funext y
  refine View.canon_apply_of_pieces (Cert.Permute.second (R := 1024) x0 x1) _ ?_ y (cover0_A_4 c i arg1 harg1 arg2 harg2 arg3 harg3 arg4 harg4 arg5 harg5 x0 x1 x2 y)
  unfold kernelRun0_A
  dsimp only
  simp only [View.readAt_eq_ld, harg1.read_unread, harg2.read_unread, harg3.read_unread]
  intro p hp x
  simp only [List.mem_cons, List.not_mem_nil, or_false] at hp
  rcases hp with rfl | rfl | rfl
  · exact (Cert.Permute.second_band_hi x0 x1 inb_S1024x896_S1024x128_0_768 inb_S1024x512_S1024x128_0_384 x).symm
  · exact (Cert.Permute.second_band_mid x0 x1 inb_S1024x896_S1024x512_0_256 inb_S1024x768_S1024x512_0_256 x).symm
  · exact (Cert.Permute.second_band_lo x0 x1 inb_S1024x896_S1024x256_0_0 inb_S1024x512_S1024x256_0_128 x).symm

end Cert.KernelIdeal.BlockValue

end
-- ==== Proof.Rows.lean ====
/-
  The column selection does not look at rows: it reads every argument in the row it is asked for.

  So if row `r` of three smaller matrices is row `r'` of three larger ones, column by column, then row `r` of the
  selection over the smaller ones is row `r'` of the selection over the larger ones. With the smaller matrices a grid
  point's input blocks and the larger ones the whole arguments, this is what makes an output block a block of the
  whole result.
-/
import proofs.«136669_j68582037782900_2_alg».proof.Proof.Spec

noncomputable section

namespace Cert.Permute

open Idealize.ShloMosaic Idealize.ShloMosaic.ValueIdx

variable {α : Type} {R R' : Nat}

/-- Row `r` of the first selection over `b0 b1 b2` is row `r'` of it over `A0 A1 A2`, at equal columns, when the rows of
    the arguments agree. -/
theorem firstAt_rows (b0 : (Mat R 512).Idx → α) (b1 : (Mat R 768).Idx → α) (b2 : (Mat R 256).Idx → α)
    (A0 : (Mat R' 512).Idx → α) (A1 : (Mat R' 768).Idx → α) (A2 : (Mat R' 256).Idx → α)
    (r : Fin R) (r' : Fin R') (q q' : Fin 640) (hq : q.val = q'.val)
    (h0 : ∀ k : Fin 512, b0 (ix2 r k) = A0 (ix2 r' k))
    (h1 : ∀ k : Fin 768, b1 (ix2 r k) = A1 (ix2 r' k))
    (h2 : ∀ k : Fin 256, b2 (ix2 r k) = A2 (ix2 r' k)) :
    firstAt b0 b1 b2 r q = firstAt A0 A1 A2 r' q' := by
  obtain rfl : q = q' := Fin.ext hq
  unfold firstAt
  by_cases h : q.val < 128
  · rw [dif_pos h, dif_pos h]; exact h0 _
  · rw [dif_neg h, dif_neg h]
    by_cases h' : q.val < 384
    · rw [dif_pos h', dif_pos h']; exact h1 _
    · rw [dif_neg h', dif_neg h']; exact h2 _

/-- The same for the second selection. -/
theorem secondAt_rows (b0 : (Mat R 512).Idx → α) (b1 : (Mat R 768).Idx → α)
    (A0 : (Mat R' 512).Idx → α) (A1 : (Mat R' 768).Idx → α)
    (r : Fin R) (r' : Fin R') (q q' : Fin 896) (hq : q.val = q'.val)
    (h0 : ∀ k : Fin 512, b0 (ix2 r k) = A0 (ix2 r' k))
    (h1 : ∀ k : Fin 768, b1 (ix2 r k) = A1 (ix2 r' k)) :
    secondAt b0 b1 r q = secondAt A0 A1 r' q' := by
  obtain rfl : q = q' := Fin.ext hq
  unfold secondAt
  by_cases h : q.val < 256
  · rw [dif_pos h, dif_pos h]; exact h0 _
  · rw [dif_neg h, dif_neg h]
    by_cases h' : q.val < 768
    · rw [dif_pos h', dif_pos h']; exact h1 _
    · rw [dif_neg h', dif_neg h']; exact h0 _

end Cert.Permute

end
-- ==== Proof.ArrayValue.lean ====
/-
  From blocks to the two result arrays.

  Grid point `t` (of 16) works on rows `1024·t .. 1024·t + 1023` of every array: each window's block index at `t` is
  `(t, 0)`. What it writes back to a result is the column selection of its three input blocks (BlockValue.lean), and an
  input block is the argument restricted to those rows; the selection reads each argument in the row it is asked for
  (Rows.lean), so what point `t` writes back is block `t` of the selection over the WHOLE arguments. The 16 blocks tile
  the 16384 rows — row `r` lies in block `r / 1024` — so after the run each result array is that selection.
-/
import proofs.«136669_j68582037782900_2_alg».proof.Proof.Gen.KernelIdeal.Value
import proofs.«136669_j68582037782900_2_alg».proof.Proof.BlockValue
import proofs.«136669_j68582037782900_2_alg».proof.Proof.Rows

set_option maxRecDepth 16384

noncomputable section

namespace Cert.KernelIdeal.ArrayValue

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- Every window's block at grid point `t` is block `(t, 0)` of its array (decided over the 16 points). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The first result -/

/-- What point `t` writes back to the first result is block `t` of the selection over the whole arguments. -/
theorem flushed_first (c : Dev nD) (t : Fin cfg0.N) :
    (dats m 0 c).flushed 3 t
      = ((cfg0.win 3).blk t).view.read (Elt F) (Cert.Permute.first (R := 16384) (V m c main_arg0) (V m c main_arg1) (V m c main_arg2)) := by
  rw [Cert.KernelIdeal.Value.flushed3_A, BlockValue.first_block]
  obtain ⟨e00, e01, e10, e11, e20, e21, e30, e31, -, -⟩ := block_index t
  funext y
  show Cert.Permute.firstAt (iblk m c 0 t) (iblk m c 1 t) (iblk m c 2 t) (y 0) (y 1)
    = Cert.Permute.firstAt (V m c main_arg0) (V m c main_arg1) (V m c main_arg2) ((((cfg0.win 3).blk t).view.emb y) 0) ((((cfg0.win 3).blk t).view.emb y) 1)
  refine Cert.Permute.firstAt_rows _ _ _ _ _ _ _ _ _ _ ?_ ?_ ?_ ?_
  · show (y 1).val = win0_3.index t (1 : Fin 2) * 640 + 1 * (y 1).val; omega
  · intro k
    show V m c main_arg0 (((cfg0.win 0).blk t).view.emb (ix2 (y 0) k)) = V m c main_arg0 (ix2 ((((cfg0.win 3).blk t).view.emb y) 0) k)
    refine congrArg _ ?_
    funext a; apply Fin.ext
    match a with
    | ⟨0, _⟩ => show win0_0.index t (0 : Fin 2) * 1024 + 1 * (y 0).val = win0_3.index t (0 : Fin 2) * 1024 + 1 * (y 0).val; omega
    | ⟨1, _⟩ => show win0_0.index t (1 : Fin 2) * 512 + 1 * k.val = k.val; omega
  · intro k
    show V m c main_arg1 (((cfg0.win 1).blk t).view.emb (ix2 (y 0) k)) = V m c main_arg1 (ix2 ((((cfg0.win 3).blk t).view.emb y) 0) k)
    refine congrArg _ ?_
    funext a; apply Fin.ext
    match a with
    | ⟨0, _⟩ => show win0_1.index t (0 : Fin 2) * 1024 + 1 * (y 0).val = win0_3.index t (0 : Fin 2) * 1024 + 1 * (y 0).val; omega
    | ⟨1, _⟩ => show win0_1.index t (1 : Fin 2) * 768 + 1 * k.val = k.val; omega
  · intro k
    show V m c main_arg2 (((cfg0.win 2).blk t).view.emb (ix2 (y 0) k)) = V m c main_arg2 (ix2 ((((cfg0.win 3).blk t).view.emb y) 0) k)
    refine congrArg _ ?_
    funext a; apply Fin.ext
    match a with
    | ⟨0, _⟩ => show win0_2.index t (0 : Fin 2) * 1024 + 1 * (y 0).val = win0_3.index t (0 : Fin 2) * 1024 + 1 * (y 0).val; omega
    | ⟨1, _⟩ => show win0_2.index t (1 : Fin 2) * 256 + 1 * k.val = k.val; omega

/-- An index of the first result lies in point `t`'s block iff each coordinate lies in the block's range. -/
theorem mem_block_first (t : Fin cfg0.N) (i : S16384x640.Idx) :
    i ∈ ((cfg0.win 3).blk t).view.set ↔ ∀ a : Fin 2, win0_3.index t a * S1024x640.size a ≤ (i a).val ∧ (i a).val < win0_3.index t a * S1024x640.size a + S1024x640.size a := by
  show i ∈ ((View.whole main_v0_0).slice (win0_3.rect t)).set ↔ _
  rw [View.set_slice_whole, Rect.mem_set_unit]
  exact Iff.rfl

/-- The first result after the run: the selection over the whole arguments. Row `r` is covered by point `r / 1024`. -/
theorem final_first (c : Dev nD) :
    (dats m 0 c).arrAt 3 cfg0.N = Cert.Permute.first (R := 16384) (V m c main_arg0) (V m c main_arg1) (V m c main_arg2) :=
  (dats m 0 c).arrAt_eq_of_cover 3 _ (fun t _ => flushed_first m c t) fun i => by
    have hi0 : (i 0).val < 16384 := (i 0).isLt
    have hi1 : (i 1).val < 640 := (i 1).isLt
    have hN : cfg0.N = 16 := N_0
    let t : Fin cfg0.N := ⟨(i 0).val / 1024, by rw [hN]; omega⟩
    have ht : t.val = (i 0).val / 1024 := rfl
    obtain ⟨-, -, -, -, -, -, e30, e31, -, -⟩ := block_index t
    refine ⟨t, flush0_3 t, ?_⟩
    rw [mem_block_first]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 640 ≤ (i 1).val ∧ (i 1).val < win0_3.index t (1 : Fin 2) * 640 + 640; omega

/-! ## The second result -/

/-- What point `t` writes back to the second result is block `t` of the selection over the whole arguments. -/
theorem flushed_second (c : Dev nD) (t : Fin cfg0.N) :
    (dats m 0 c).flushed 4 t
      = ((cfg0.win 4).blk t).view.read (Elt F) (Cert.Permute.second (R := 16384) (V m c main_arg0) (V m c main_arg1)) := by
  rw [Cert.KernelIdeal.Value.flushed4_A, BlockValue.second_block]
  obtain ⟨e00, e01, e10, e11, -, -, -, -, e40, e41⟩ := block_index t
  funext y
  show Cert.Permute.secondAt (iblk m c 0 t) (iblk m c 1 t) (y 0) (y 1)
    = Cert.Permute.secondAt (V m c main_arg0) (V m c main_arg1) ((((cfg0.win 4).blk t).view.emb y) 0) ((((cfg0.win 4).blk t).view.emb y) 1)
  refine Cert.Permute.secondAt_rows _ _ _ _ _ _ _ _ ?_ ?_ ?_
  · show (y 1).val = win0_4.index t (1 : Fin 2) * 896 + 1 * (y 1).val; omega
  · intro k
    show V m c main_arg0 (((cfg0.win 0).blk t).view.emb (ix2 (y 0) k)) = V m c main_arg0 (ix2 ((((cfg0.win 4).blk t).view.emb y) 0) k)
    refine congrArg _ ?_
    funext a; apply Fin.ext
    match a with
    | ⟨0, _⟩ => show win0_0.index t (0 : Fin 2) * 1024 + 1 * (y 0).val = win0_4.index t (0 : Fin 2) * 1024 + 1 * (y 0).val; omega
    | ⟨1, _⟩ => show win0_0.index t (1 : Fin 2) * 512 + 1 * k.val = k.val; omega
  · intro k
    show V m c main_arg1 (((cfg0.win 1).blk t).view.emb (ix2 (y 0) k)) = V m c main_arg1 (ix2 ((((cfg0.win 4).blk t).view.emb y) 0) k)
    refine congrArg _ ?_
    funext a; apply Fin.ext
    match a with
    | ⟨0, _⟩ => show win0_1.index t (0 : Fin 2) * 1024 + 1 * (y 0).val = win0_4.index t (0 : Fin 2) * 1024 + 1 * (y 0).val; omega
    | ⟨1, _⟩ => show win0_1.index t (1 : Fin 2) * 768 + 1 * k.val = k.val; omega

/-- An index of the second result lies in point `t`'s block iff each coordinate lies in the block's range. -/
theorem mem_block_second (t : Fin cfg0.N) (i : S16384x896.Idx) :
    i ∈ ((cfg0.win 4).blk t).view.set ↔ ∀ a : Fin 2, win0_4.index t a * S1024x896.size a ≤ (i a).val ∧ (i a).val < win0_4.index t a * S1024x896.size a + S1024x896.size a := by
  show i ∈ ((View.whole main_v0_1).slice (win0_4.rect t)).set ↔ _
  rw [View.set_slice_whole, Rect.mem_set_unit]
  exact Iff.rfl

/-- The second result after the run: the selection over the whole arguments. -/
theorem final_second (c : Dev nD) :
    (dats m 0 c).arrAt 4 cfg0.N = Cert.Permute.second (R := 16384) (V m c main_arg0) (V m c main_arg1) :=
  (dats m 0 c).arrAt_eq_of_cover 4 _ (fun t _ => flushed_second m c t) fun i => by
    have hi0 : (i 0).val < 16384 := (i 0).isLt
    have hi1 : (i 1).val < 896 := (i 1).isLt
    have hN : cfg0.N = 16 := N_0
    let t : Fin cfg0.N := ⟨(i 0).val / 1024, by rw [hN]; omega⟩
    have ht : t.val = (i 0).val / 1024 := rfl
    obtain ⟨-, -, -, -, -, -, -, -, e40, e41⟩ := block_index t
    refine ⟨t, flush0_4 t, ?_⟩
    rw [mem_block_second]
    intro a
    match a with
    | ⟨0, _⟩ => show win0_4.index t (0 : Fin 2) * 1024 ≤ (i 0).val ∧ (i 0).val < win0_4.index t (0 : Fin 2) * 1024 + 1024; omega
    | ⟨1, _⟩ => show win0_4.index t (1 : Fin 2) * 896 ≤ (i 1).val ∧ (i 1).val < win0_4.index t (1 : Fin 2) * 896 + 896; omega

/-! ## The run, read -/

/-- Every weakly fair execution of the kernel's program terminates with the two result arrays at the two selections over
    the argument arrays as launched, and the arguments unchanged. -/
theorem run : θ_run defs (onTc (τ := τ) (main (F := F))) ⟨m, fun _ => 0, ρ⟩ fun r => ∀ c : Dev nD,
      r.2.mem ((c : Thread nD τ).loc main_v0_0)
        = Cert.Permute.first (R := 16384) (m ((c : Thread nD τ).loc main_arg0)) (m ((c : Thread nD τ).loc main_arg1)) (m ((c : Thread nD τ).loc main_arg2))
      ∧ r.2.mem ((c : Thread nD τ).loc main_v0_1)
        = Cert.Permute.second (R := 16384) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_first m c), (h c).2.1.trans (final_second m c), (h c).2.2⟩)
    (Cert.KernelIdeal.Value.run_blocks m ρ)

end Cert.KernelIdeal.ArrayValue

end
-- ==== Proof.RefValue.lean ====
/-
  The reference's two results are the column selections of Spec.lean.

  The reference slices bands of columns out of the arguments and joins three of them side by side. An element of a
  join comes from the piece whose span of columns holds its column, at that column less the widths of the pieces
  before it; an element of a slice comes from the argument at the slice's first column plus its own. Following an index
  through the join and then the slice gives, in each of the three column ranges, the argument element Spec.lean names.
-/
import proofs.«136669_j68582037782900_2_alg».proof.Proof.Gen.ReferenceIdeal.Read
import proofs.«136669_j68582037782900_2_alg».proof.Proof.Spec
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx

variable {F : FTy → Type} [FloatOps F]

/-- The first result: the join of columns 0..127 of the first argument, columns 0..255 of the second, and the third. -/
theorem first_eq (x0 : (⟨S16384x512, .f32⟩ : BufTy).Contents (Elt F)) (x1 : (⟨S16384x768, .f32⟩ : BufTy).Contents (Elt F)) (x2 : (⟨S16384x256, .f32⟩ : BufTy).Contents (Elt F)) :
    val_main_v2 (F := F) x0 x1 x2 = Cert.Permute.first (R := 16384) x0 x1 x2 := by
  funext j
  have hj : (j 1).val < 640 := (j 1).isLt
  unfold val_main_v2 Cert.Permute.first
  by_cases h : (j 1).val < 128
  · refine (concatenate_apply_piece (α := Elt F .f32) (t := S16384x640) (1 : Fin 2) [⟨S16384x128, val_main_v0 (F := F) x0⟩, ⟨S16384x256, val_main_v1 (F := F) x1⟩, ⟨S16384x256, x2⟩] concatenates_S16384x128_S16384x256_S16384x256_S16384x640_d1 j 0 (by simp) S16384x128
      (val_main_v0 (F := F) x0) rfl rfl 0 rfl (ix2 (j 0) ⟨(j 1).val, h⟩) ?_ ?_).trans ?_
    · intro b hb
      match b with
      | ⟨0, _⟩ => rfl
      | ⟨1, _⟩ => exact absurd rfl hb
    · show 0 + (j 1).val = (j 1).val; omega
    · rw [val_main_v0_apply]
      refine (congrArg x0 ?_).trans (Cert.Permute.firstAt_lo x0 x1 x2 _ _ h).symm
      funext a; apply Fin.ext
      match a with
      | ⟨0, _⟩ => rfl
      | ⟨1, _⟩ => rfl
  · by_cases h' : (j 1).val < 384
    · refine (concatenate_apply_piece (α := Elt F .f32) (t := S16384x640) (1 : Fin 2) [⟨S16384x128, val_main_v0 (F := F) x0⟩, ⟨S16384x256, val_main_v1 (F := F) x1⟩, ⟨S16384x256, x2⟩] concatenates_S16384x128_S16384x256_S16384x256_S16384x640_d1 j 1 (by simp) S16384x256
        (val_main_v1 (F := F) x1) rfl rfl 128 rfl (ix2 (j 0) ⟨(j 1).val - 128, by omega⟩) ?_ ?_).trans ?_
      · intro b hb
        match b with
        | ⟨0, _⟩ => rfl
        | ⟨1, _⟩ => exact absurd rfl hb
      · show 128 + ((j 1).val - 128) = (j 1).val; omega
      · rw [val_main_v1_apply]
        refine (congrArg x1 ?_).trans (Cert.Permute.firstAt_mid x0 x1 x2 _ _ (by omega) h').symm
        funext a; apply Fin.ext
        match a with
        | ⟨0, _⟩ => rfl
        | ⟨1, _⟩ => rfl
    · refine (concatenate_apply_piece (α := Elt F .f32) (t := S16384x640) (1 : Fin 2) [⟨S16384x128, val_main_v0 (F := F) x0⟩, ⟨S16384x256, val_main_v1 (F := F) x1⟩, ⟨S16384x256, x2⟩] concatenates_S16384x128_S16384x256_S16384x256_S16384x640_d1 j 2 (by simp) S16384x256
        x2 rfl rfl 384 rfl (ix2 (j 0) ⟨(j 1).val - 384, by omega⟩) ?_ ?_).trans ?_
      · intro b hb
        match b with
        | ⟨0, _⟩ => rfl
        | ⟨1, _⟩ => exact absurd rfl hb
      · show 384 + ((j 1).val - 384) = (j 1).val; omega
      · exact (Cert.Permute.firstAt_hi x0 x1 x2 _ _ (by omega)).symm

/-- The second result: the join of columns 128..383 of the first argument, columns 256..767 of the second, and columns
    384..511 of the first. -/
theorem second_eq (x0 : (⟨S16384x512, .f32⟩ : BufTy).Contents (Elt F)) (x1 : (⟨S16384x768, .f32⟩ : BufTy).Contents (Elt F)) :
    val_main_v6 (F := F) x0 x1 = Cert.Permute.second (R := 16384) x0 x1 := by
  funext j
  have hj : (j 1).val < 896 := (j 1).isLt
  unfold val_main_v6 Cert.Permute.second
  by_cases h : (j 1).val < 256
  · refine (concatenate_apply_piece (α := Elt F .f32) (t := S16384x896) (1 : Fin 2) [⟨S16384x256, val_main_v3 (F := F) x0⟩, ⟨S16384x512, val_main_v4 (F := F) x1⟩, ⟨S16384x128, val_main_v5 (F := F) x0⟩] concatenates_S16384x256_S16384x512_S16384x128_S16384x896_d1 j 0 (by simp) S16384x256
      (val_main_v3 (F := F) x0) rfl rfl 0 rfl (ix2 (j 0) ⟨(j 1).val, h⟩) ?_ ?_).trans ?_
    · intro b hb
      match b with
      | ⟨0, _⟩ => rfl
      | ⟨1, _⟩ => exact absurd rfl hb
    · show 0 + (j 1).val = (j 1).val; omega
    · rw [val_main_v3_apply]
      refine (congrArg x0 ?_).trans (Cert.Permute.secondAt_lo x0 x1 _ _ h).symm
      funext a; apply Fin.ext
      match a with
      | ⟨0, _⟩ => rfl
      | ⟨1, _⟩ => rfl
  · by_cases h' : (j 1).val < 768
    · refine (concatenate_apply_piece (α := Elt F .f32) (t := S16384x896) (1 : Fin 2) [⟨S16384x256, val_main_v3 (F := F) x0⟩, ⟨S16384x512, val_main_v4 (F := F) x1⟩, ⟨S16384x128, val_main_v5 (F := F) x0⟩] concatenates_S16384x256_S16384x512_S16384x128_S16384x896_d1 j 1 (by simp) S16384x512
        (val_main_v4 (F := F) x1) rfl rfl 256 rfl (ix2 (j 0) ⟨(j 1).val - 256, by omega⟩) ?_ ?_).trans ?_
      · intro b hb
        match b with
        | ⟨0, _⟩ => rfl
        | ⟨1, _⟩ => exact absurd rfl hb
      · show 256 + ((j 1).val - 256) = (j 1).val; omega
      · rw [val_main_v4_apply]
        refine (congrArg x1 ?_).trans (Cert.Permute.secondAt_mid x0 x1 _ _ (by omega) h').symm
        funext a; apply Fin.ext
        match a with
        | ⟨0, _⟩ => rfl
        | ⟨1, _⟩ => show 256 + ((j 1).val - 256) = (j 1).val; omega
    · refine (concatenate_apply_piece (α := Elt F .f32) (t := S16384x896) (1 : Fin 2) [⟨S16384x256, val_main_v3 (F := F) x0⟩, ⟨S16384x512, val_main_v4 (F := F) x1⟩, ⟨S16384x128, val_main_v5 (F := F) x0⟩] concatenates_S16384x256_S16384x512_S16384x128_S16384x896_d1 j 2 (by simp) S16384x128
        (val_main_v5 (F := F) x0) rfl rfl 768 rfl (ix2 (j 0) ⟨(j 1).val - 768, by omega⟩) ?_ ?_).trans ?_
      · intro b hb
        match b with
        | ⟨0, _⟩ => rfl
        | ⟨1, _⟩ => exact absurd rfl hb
      · show 768 + ((j 1).val - 768) = (j 1).val; omega
      · rw [val_main_v5_apply]
        refine (congrArg x0 ?_).trans (Cert.Permute.secondAt_hi x0 x1 _ _ (by omega)).symm
        funext a; apply Fin.ext
        match a with
        | ⟨0, _⟩ => rfl
        | ⟨1, _⟩ => show 384 + ((j 1).val - 768) = (j 1).val - 384; omega

end Cert.ReferenceIdeal.RefValue

end
-- ==== Proof.lean ====
/-
  The kernel and its reference compute the same two arrays.

  Both programs only move data. From three arguments of 16384 rows (512, 768 and 256 columns) they build, row by row,
    a first result of 640 columns:  columns 0..127 of the first argument | columns 0..255 of the second | the third,
    a second result of 896 columns: columns 128..383 of the first | columns 256..767 of the second | columns 384..511 of the first.
  The reference does it with slices and two joins of three pieces each; the kernel does it on a grid of 16 points,
  each copying six bands of columns between blocks of 1024 rows. No arithmetic is done on any element, so the equality
  holds over the extended reals for every input, and the finiteness of the inputs is never used.

  Spec.lean states the two results as functions of the arguments. RefValue.lean shows the reference's results are these
  functions (an element of a join comes from the piece whose columns hold it; an element of a slice from the argument
  at the shifted column). BlockValue.lean (with Bands.lean) shows that one grid point leaves them in its output blocks,
  as functions of its input blocks; ArrayValue.lean (with Rows.lean) that the 16 blocks are the blocks of the whole
  functions and tile the result arrays. Here the two runs are set side by side.

  The three frame claims are the generated frames (the reference's: its generated run, the results dropped). The
  idealized kernel is the kernel's own text read at the ideal instance: nothing to preserve.
-/
import proofs.«136669_j68582037782900_2_alg».proof.Defs
import proofs.«136669_j68582037782900_2_alg».proof.Proof.Gen.Kernel
import proofs.«136669_j68582037782900_2_alg».proof.Proof.Gen.Kernel.Skeleton
import proofs.«136669_j68582037782900_2_alg».proof.Proof.Gen.Kernel.Launch
import proofs.«136669_j68582037782900_2_alg».proof.Proof.Gen.Kernel.Points
import proofs.«136669_j68582037782900_2_alg».proof.Proof.Gen.Kernel.Frame
import proofs.«136669_j68582037782900_2_alg».proof.Proof.Gen.KernelIdeal
import proofs.«136669_j68582037782900_2_alg».proof.Proof.Gen.KernelIdeal.Skeleton
import proofs.«136669_j68582037782900_2_alg».proof.Proof.Gen.KernelIdeal.Launch
import proofs.«136669_j68582037782900_2_alg».proof.Proof.Gen.KernelIdeal.Points
import proofs.«136669_j68582037782900_2_alg».proof.Proof.Gen.KernelIdeal.Frame
import proofs.«136669_j68582037782900_2_alg».proof.Proof.Gen.ReferenceIdeal
import proofs.«136669_j68582037782900_2_alg».proof.Proof.Gen.KernelIdeal.Value
import proofs.«136669_j68582037782900_2_alg».proof.Proof.Gen.ReferenceIdeal.Run
import proofs.«136669_j68582037782900_2_alg».proof.Proof.Gen.ReferenceIdeal.Read
import proofs.«136669_j68582037782900_2_alg».proof.Proof.Gen.Pre_finite_inputs
import proofs.«136669_j68582037782900_2_alg».proof.Proof.ArrayValue
import proofs.«136669_j68582037782900_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as they were. -/
theorem frame_kernel : Cert.frame_Kernel := fun m ρ _ => Cert.Kernel.Gen.frame m ρ

/-- So does the kernel read at the ideal instance. -/
theorem frame_kernel_ideal : Cert.frame_KernelIdeal := fun m ρ _ => Cert.KernelIdeal.Gen.frame m ρ

/-- So does the reference: its run, with what it says of the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the three arguments, both programs end with the first result at the first selection of
    the arguments and the second result at the second: the kernel by its grid of block copies, the reference by its
    slices and joins. -/
theorem algebraic : Cert.algebraic_KernelIdeal_ReferenceIdeal := by
  intro m ρ m' ρ' _ hagree
  refine ⟨_, _, Cert.KernelIdeal.ArrayValue.run (F := Ideal) m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v2_eq, Cert.ReferenceIdeal.RefValue.first_eq,
      (hagree c).1, (hagree c).2.1, (hagree c).2.2]
  · rw [(h c).2.1, Cert.ReferenceIdeal.Read.val_main_v6_eq, Cert.ReferenceIdeal.RefValue.second_eq,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
